-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x16 : Shape := ⟨2, ![1000, 16]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S16384x1000 .f32) (main_arg1 : FVec F S1000x16 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S16384x1000 : Shape := ⟨2, ![16384, 1000]⟩
abbrev S1000x16 : Shape := ⟨2, ![1000, 16]⟩
abbrev S1000x16384 : Shape := ⟨2, ![1000, 16384]⟩
abbrev S_ : Shape := ⟨0, ![]⟩
abbrev S1000x24 : Shape := ⟨2, ![1000, 24]⟩
abbrev S1 : Shape := ⟨1, ![1]⟩
abbrev S1000 : Shape := ⟨1, ![1000]⟩
abbrev S16x16384 : Shape := ⟨2, ![16, 16384]⟩
abbrev S1000x2048 : Shape := ⟨2, ![1000, 2048]⟩
abbrev S16x2048 : Shape := ⟨2, ![16, 2048]⟩
abbrev S24x2048 : Shape := ⟨2, ![24, 2048]⟩
abbrev S1x2048 : Shape := ⟨2, ![1, 2048]⟩
abbrev S16384x16 : Shape := ⟨2, ![16384, 16]⟩

abbrev nBuf : Space → Nat
  | .hbm => 15
  | .vmem => 5
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S1000x16384, .f32⟩
  | .hbm, ⟨3, _⟩ => ⟨S_, .f32⟩
  | .hbm, ⟨4, _⟩ => ⟨S1000x24, .f32⟩
  | .hbm, ⟨5, _⟩ => ⟨S_, .i32⟩
  | .hbm, ⟨6, _⟩ => ⟨S1, .i32⟩
  | .hbm, ⟨7, _⟩ => ⟨S1000x24, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S1000, .f32⟩
  | .hbm, ⟨12, _⟩ => ⟨S1000x24, .f32⟩
  | .hbm, ⟨13, _⟩ => ⟨S16x16384, .f32⟩
  | .hbm, ⟨14, _⟩ => ⟨S16384x16, .f32⟩
  | .local _ .vmem, ⟨0, _⟩ => ⟨S1000x24, .f32⟩
  | .local _ .vmem, ⟨1, _⟩ => ⟨S1000x2048, .f32⟩
  | .local _ .vmem, ⟨2, _⟩ => ⟨S1000x2048, .f32⟩
  | .local _ .vmem, ⟨3, _⟩ => ⟨S16x2048, .f32⟩
  | .local _ .vmem, ⟨4, _⟩ => ⟨S16x2048, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1000x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x1000_S1000x16384_1_0 : S16384x1000.Transposes [1, 0] S1000x16384
  bcast_S_S1000x24 : S_.BroadcastsInDim S1000x24 (![] : Fin 0 → Fin S1000x24.rank)
  bcast_S_S1 : S_.BroadcastsInDim S1 (![] : Fin 0 → Fin S1.rank)
  bcast_S_S1000 : S_.BroadcastsInDim S1000 (![] : Fin 0 → Fin S1000.rank)
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  bitsLt_bf16_f32 : FTy.bits .bf16 < FTy.bits .f32
  inb_S1000x24_S1000x24_0_0 : ∀ a, (![0, 0] : Fin 2 → Nat) a + S1000x24.size a ≤ S1000x24.size a
  h_S1000x24 : 0 < S1000x24.numel
  shapeCasts_S1000x24_S1000x24 : S1000x24.ShapeCasts S1000x24
  slices_S24x2048_o0_0_S16x2048 : S24x2048.Slices ![0, 0] S16x2048
  slices_S24x2048_o16_0_S1x2048 : S24x2048.Slices ![16, 0] S1x2048
  broadcasts_S1x2048_S16x2048 : S1x2048.Broadcasts S16x2048
  inb_S16x2048_S16x2048_0_0 : ∀ a, (![0, 0] : Fin 2 → Nat) a + S16x2048.size a ≤ S16x2048.size a
  h_S16x2048 : 0 < S16x2048.numel
  transposes_S16x16384_S16384x16_1_0 : S16x16384.Transposes [1, 0] S16384x16
  scatter_S1000x24_S1_S1000x16_01_n_1_0_wf : ScatterDims.WF S1000x24 S1 S1000x16 [0, 1] [] [1] 0
  scatter_S1000x24_S1_S1000_0_1_1_0_wf : ScatterDims.WF S1000x24 S1 S1000 [0] [1] [1] 0
  dot_S1000x24_S1000x2048_S24x2048_0_0_1_1_n_n_wf : DotDims.WF S1000x24 S1000x2048 S24x2048 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x24.size a ≤ S1000x24.size a
  hwx0_0 : ∀ i : grid0.Coords, EltTy.bits .f32 = 32 ∨ (Rect.block (s := S1000x24) S1000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x16384.size a
  hwx0_1 : ∀ i : grid0.Coords, EltTy.bits .f32 = 32 ∨ (Rect.block (s := S1000x16384) S1000x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x16384.size a
  hwx0_2 : ∀ i : grid0.Coords, EltTy.bits .f32 = 32 ∨ (Rect.block (s := S16x16384) S16x2048.size (cc0_transform_2 i) (hinb0_2 i)).WholeWords (EltTy.packing .f32)

variable [Facts₀]

def scatter_S1000x24_S1_S1000x16_01_n_1_0 : ScatterDims S1000x24 S1 S1000x16 where
  updateWindowDims := [0, 1]
  insertedWindowDims := []
  scatterDimsToOperandDims := [1]
  indexVectorDim := 0
  wf := scatter_S1000x24_S1_S1000x16_01_n_1_0_wf
def scatter_S1000x24_S1_S1000_0_1_1_0 : ScatterDims S1000x24 S1 S1000 where
  updateWindowDims := [0]
  insertedWindowDims := [1]
  scatterDimsToOperandDims := [1]
  indexVectorDim := 0
  wf := scatter_S1000x24_S1_S1000_0_1_1_0_wf
def dot_S1000x24_S1000x2048_S24x2048_0_0_1_1_n_n : DotDims S1000x24 S1000x2048 S24x2048 where
  lhsContracting := [0]
  rhsContracting := [0]
  lhsNonContracting := [1]
  rhsNonContracting := [1]
  lhsBatch := []
  rhsBatch := []
  wf := dot_S1000x24_S1000x2048_S24x2048_0_0_1_1_n_n_wf

abbrev win0_0 : Pipeline.Window sig grid0 :=
  Pipeline.Window.ofSpec (Memref.whole main_v6) S1000x24.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x16 : Shape := ⟨2, ![1000, 16]⟩
abbrev S_ : Shape := ⟨0, ![]⟩
abbrev S16384 : Shape := ⟨1, ![16384]⟩
abbrev S16384x1 : Shape := ⟨2, ![16384, 1]⟩
abbrev S16384x16 : Shape := ⟨2, ![16384, 16]⟩

abbrev nBuf : Space → Nat
  | .hbm => 17
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1000, .f32⟩
  | .hbm, ⟨15, _⟩ => ⟨S16384x1000, .f32⟩
  | .hbm, ⟨16, _⟩ => ⟨S16384x16, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  dot_S16384x1000_S1000x16_S16384x16_1_0_0_1_n_n_wf : DotDims.WF S16384x1000 S1000x16 S16384x16 [1] [0] [0] [1] [] []

variable [Facts₀]

def dot_S16384x1000_S1000x16_S16384x16_1_0_0_1_n_n : DotDims S16384x1000 S1000x16 S16384x16 where
  lhsContracting := [1]
  rhsContracting := [0]
  lhsNonContracting := [0]
  rhsNonContracting := [1]
  lhsBatch := []
  rhsBatch := []
  wf := dot_S16384x1000_S1000x16_S16384x16_1_0_0_1_n_n_wf

class Facts : Prop extends Facts₀ where

variable [Facts]
-- ==== Proof.Payload.lean ====
/-
  The kernel body's arithmetic at an index. The body contracts the table block (1000 x 24, items in columns
  0..15, ones in column 16) with the exponentials of the selections block (1000 x 2048) over the 1000 items:
  row `r` of the product at column `j` is Σ_n table(n, r) · e^{sel(n, j)}. It then divides rows 0..15 by row 16.
  The changes of float format are the identity on the extended reals, and the product into a zero accumulator
  is the plain sum.
-/
import proofs.«157237_g13202729468280_cont_week2_1087_45_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The left operand is read at (contraction coordinate, output row): its contracted axis is its first. -/
theorem lhs_contr (i : S24x2048.Idx) (q : dot_S1000x24_S1000x2048_S24x2048_0_0_1_1_n_n.contr.Idx) :
    (dot_S1000x24_S1000x2048_S24x2048_0_0_1_1_n_n.lhsIdx i q 0).val = (q ⟨0, by decide⟩).val :=
  dot_S1000x24_S1000x2048_S24x2048_0_0_1_1_n_n.lhsIdx_val_of_single rfl i q
theorem lhs_row (i : S24x2048.Idx) (q : dot_S1000x24_S1000x2048_S24x2048_0_0_1_1_n_n.contr.Idx) :
    (dot_S1000x24_S1000x2048_S24x2048_0_0_1_1_n_n.lhsIdx i q 1).val = (i 0).val := by
  unfold DotDims.lhsIdx
  rw [dif_neg (show ¬(1 : Fin S1000x24.rank) ∈ dot_S1000x24_S1000x2048_S24x2048_0_0_1_1_n_n.lhsBatch by decide),
    dif_pos (show (1 : Fin S1000x24.rank) ∈ dot_S1000x24_S1000x2048_S24x2048_0_0_1_1_n_n.lhsNonContracting by decide)]
  rfl
/-- The right operand is read at (contraction coordinate, output column). -/
theorem rhs_contr (i : S24x2048.Idx) (q : dot_S1000x24_S1000x2048_S24x2048_0_0_1_1_n_n.contr.Idx) :
    (dot_S1000x24_S1000x2048_S24x2048_0_0_1_1_n_n.rhsIdx i q 0).val = (q ⟨0, by decide⟩).val :=
  dot_S1000x24_S1000x2048_S24x2048_0_0_1_1_n_n.rhsIdx_val_of_single rfl i q
theorem rhs_col (i : S24x2048.Idx) (q : dot_S1000x24_S1000x2048_S24x2048_0_0_1_1_n_n.contr.Idx) :
    (dot_S1000x24_S1000x2048_S24x2048_0_0_1_1_n_n.rhsIdx i q 1).val = (i 1).val := by
  unfold DotDims.rhsIdx
  rw [dif_neg (show ¬(1 : Fin S1000x2048.rank) ∈ dot_S1000x24_S1000x2048_S24x2048_0_0_1_1_n_n.rhsBatch by decide),
    dif_pos (show (1 : Fin S1000x2048.rank) ∈ dot_S1000x24_S1000x2048_S24x2048_0_0_1_1_n_n.rhsNonContracting by decide)]
  rfl

/-- Row `r`, column `j` of the contraction over the first axis of both operands: the sum over the 1000 items. -/
theorem contraction_apply (l : FVec Ideal S1000x24 .bf16) (e : FVec Ideal S1000x2048 .bf16) (r : Fin 24) (j : Fin 2048) :
    FloatOps.matmul dot_S1000x24_S1000x2048_S24x2048_0_0_1_1_n_n none l e (constant S24x2048 .f32 0x00000000#32) (ix2 r j)
      = ∑ n : Fin 1000, l (ix2 n r) * e (ix2 n j) := by
  rw [Ideal.matmul_constant_zero_apply,
    ← Equiv.sum_comp (contrEquiv1 dot_S1000x24_S1000x2048_S24x2048_0_0_1_1_n_n 1000 rfl rfl).symm]
  refine Finset.sum_congr rfl fun k _ => ?_
  have hk := contrEquiv1_symm_val dot_S1000x24_S1000x2048_S24x2048_0_0_1_1_n_n 1000 rfl rfl k
  have el : dot_S1000x24_S1000x2048_S24x2048_0_0_1_1_n_n.lhsIdx (ix2 r j) ((contrEquiv1 dot_S1000x24_S1000x2048_S24x2048_0_0_1_1_n_n 1000 rfl rfl).symm k) = ix2 k r :=
    funext fun a => Fin.ext (by
      match a with
      | ⟨0, _⟩ => exact (lhs_contr _ _).trans hk
      | ⟨1, _⟩ => exact lhs_row _ _)
  have er : dot_S1000x24_S1000x2048_S24x2048_0_0_1_1_n_n.rhsIdx (ix2 r j) ((contrEquiv1 dot_S1000x24_S1000x2048_S24x2048_0_0_1_1_n_n 1000 rfl rfl).symm k) = ix2 k j :=
    funext fun a => Fin.ext (by
      match a with
      | ⟨0, _⟩ => exact (rhs_contr _ _).trans hk
      | ⟨1, _⟩ => exact rhs_col _ _)
  rw [el, er]

/-- The stored value at row `s` (a sample) and column `j` (a batch column of the block): the contraction's
    row `s` divided by its row 16, both at column `j`. -/
theorem pay_apply (x0 : Vec Ideal S1000x2048 .f32) (x4 : Vec Ideal S1000x24 .f32) (s : Fin 16) (j : Fin 2048) :
    k0_pay1 (F := Ideal) x0 x4 (ix2 s j)
      = Ideal.div (∑ n : Fin 1000, x4 (ix2 n (⟨s.val, by omega⟩ : Fin 24)) * Ideal.exp (x0 (ix2 n j)))
          (∑ n : Fin 1000, x4 (ix2 n (⟨16, by decide⟩ : Fin 24)) * Ideal.exp (x0 (ix2 n j))) := by
  unfold k0_pay1
  refine (divf_apply _ _ _).trans ?_
  refine congrArg₂ Ideal.div ?_ ?_
  · refine (extractStridedSlice_apply _ _ slices_S24x2048_o0_0_S16x2048 (ix2 s j) (ix2 (⟨s.val, by omega⟩ : Fin 24) j)
      (fun a => by match a with | ⟨0, _⟩ => exact (Nat.zero_add _).symm | ⟨1, _⟩ => exact (Nat.zero_add _).symm)).trans ?_
    refine (contraction_apply _ _ _ _).trans ?_
    simp only [shapeCast_self]
    rfl
  · refine (broadcastTo_apply _ broadcasts_S1x2048_S16x2048 (ix2 s j) (ix2 (0 : Fin 1) j)
      (fun a => by
        match a with
        | ⟨0, _⟩ => show 0 = if (1 : Nat) = 1 then 0 else _; rw [if_pos rfl]
        | ⟨1, _⟩ => show j.val = if (2048 : Nat) = 1 then 0 else j.val; rw [if_neg (by decide)])).trans ?_
    refine (extractStridedSlice_apply _ _ slices_S24x2048_o16_0_S1x2048 (ix2 (0 : Fin 1) j) (ix2 (⟨16, by decide⟩ : Fin 24) j)
      (fun a => by match a with | ⟨0, _⟩ => rfl | ⟨1, _⟩ => exact (Nat.zero_add _).symm)).trans ?_
    refine (contraction_apply _ _ _ _).trans ?_
    simp only [shapeCast_self]
    rfl

end Cert.KernelIdeal.Payload

end
-- ==== Proof.Spec.lean ====
/-
  The specification both programs are compared with: the softmax-weighted table lookup, written without
  the shift by the row maximum. For a batch row `b` and a sample column `s`,

      lookup X A (b, s) = (Σ_n A(n, s) · e^{X(b, n)}) / (Σ_n 1 · e^{X(b, n)}),

  every operation the exact one on the extended reals. The denominator keeps its factor `1`: it is the
  table's column of ones contracted with the exponentials, exactly as the numerator is a column of items.
-/
import Idealize.ShloMosaic.PureOps.Ideal
import Idealize.ShloMosaic.Lib.ValueIdx

noncomputable section

namespace Cert.Spec

open Idealize.ShloMosaic Idealize.ShloMosaic.ValueIdx

/-- The lookup at explicit coordinates: row `b` of the selections, column `s` of the items. -/
def lookupAt (X : (⟨2, ![16384, 1000]⟩ : Shape).Idx → EReal) (A : (⟨2, ![1000, 16]⟩ : Shape).Idx → EReal)
    (b : Fin 16384) (s : Fin 16) : EReal :=
  Ideal.div (∑ n : Fin 1000, A (ix2 n s) * Ideal.exp (X (ix2 b n)))
    (∑ n : Fin 1000, (1 : EReal) * Ideal.exp (X (ix2 b n)))

/-- The whole result array, index by index. -/
def lookup (X : (⟨2, ![16384, 1000]⟩ : Shape).Idx → EReal) (A : (⟨2, ![1000, 16]⟩ : Shape).Idx → EReal) :
    (⟨2, ![16384, 16]⟩ : Shape).Idx → EReal :=
  fun i => lookupAt X A ⟨(i 0).val, (i 0).isLt⟩ ⟨(i 1).val, (i 1).isLt⟩

theorem lookup_ix2 (X : (⟨2, ![16384, 1000]⟩ : Shape).Idx → EReal) (A : (⟨2, ![1000, 16]⟩ : Shape).Idx → EReal)
    (b : Fin 16384) (s : Fin 16) : lookup X A (ix2 b s) = lookupAt X A b s := rfl

end Cert.Spec

end
-- ==== Proof.LibScatterSet.lean ====
import Idealize.ShloMosaic.PureOps.ShapeOps

/-!
# Reading a "set" scatter at an index

`Host.scatter d (fun _ b => b) x idx upd` is a left fold, over the update indices in row-major
order, of a step that overwrites the operand position an update index lands on. When the body
returns the update (`fun _ b => b`, an `.at[…].set`), the value left at an operand position
`i` is

* `x i` when no update index lands on `i` (`scatter_set_miss`);
* `upd j` when `j` is the one update index that lands on `i` (`scatter_set_hit`).

Both follow from the corresponding facts about the fold over an arbitrary list of update
positions (`foldl_set_miss`, `foldl_set_hit`), proved by induction on the list with the
accumulator generalized.
-/

namespace Cert.LibScatterSet

open Idealize.ShloMosaic

variable {s si u : Shape} {α : Type} {w : Nat}

/-- The fold of the "set" step over a list `l` of update positions leaves operand position `i`
    alone when no position of `l` lands on `i`. -/
theorem foldl_set_miss (d : ScatterDims s si u) (idx : IVec si w) (upd : u.Idx → α)
    (l : List (Fin u.numel)) (x : s.Idx → α) (i : s.Idx)
    (h : ∀ n ∈ l, d.resultIdx? (u.rowMajor.symm n) idx ≠ some i) :
    l.foldl (fun r n =>
        match d.resultIdx? (u.rowMajor.symm n) idx with
        | some i => fun i' => if i' = i then (fun _ b => b) (r i) (upd (u.rowMajor.symm n)) else r i'
        | none => r)
      x i = x i := by
  induction l generalizing x with
  | nil => rfl
  | cons n l ih =>
    rw [List.foldl_cons, ih _ (fun m hm => h m (List.mem_cons_of_mem _ hm))]
    have hn := h n List.mem_cons_self
    generalize d.resultIdx? (u.rowMajor.symm n) idx = o at hn
    cases o with
    | none => rfl
    | some k =>
      have hik : i ≠ k := fun e => hn (e ▸ rfl)
      exact if_neg hik

/-- The fold of the "set" step over a list `l` of update positions leaves `upd j` at operand
    position `i` when some position of `l` lands on `i` and every position of `l` that lands
    on `i` is the position of `j`. -/
theorem foldl_set_hit (d : ScatterDims s si u) (idx : IVec si w) (upd : u.Idx → α)
    (l : List (Fin u.numel)) (x : s.Idx → α) (i : s.Idx) (j : u.Idx)
    (hex : ∃ n ∈ l, d.resultIdx? (u.rowMajor.symm n) idx = some i)
    (huniq : ∀ n ∈ l, d.resultIdx? (u.rowMajor.symm n) idx = some i → u.rowMajor.symm n = j) :
    l.foldl (fun r n =>
        match d.resultIdx? (u.rowMajor.symm n) idx with
        | some i => fun i' => if i' = i then (fun _ b => b) (r i) (upd (u.rowMajor.symm n)) else r i'
        | none => r)
      x i = upd j := by
  induction l generalizing x with
  | nil => obtain ⟨n, hn, _⟩ := hex; cases hn
  | cons n l ih =>
    rw [List.foldl_cons]
    by_cases hl : ∃ m ∈ l, d.resultIdx? (u.rowMajor.symm m) idx = some i
    · exact ih _ hl (fun m hm => huniq m (List.mem_cons_of_mem _ hm))
    · have hmiss : ∀ m ∈ l, d.resultIdx? (u.rowMajor.symm m) idx ≠ some i :=
        fun m hm e => hl ⟨m, hm, e⟩
      rw [foldl_set_miss d idx upd l _ i hmiss]
      have hn : d.resultIdx? (u.rowMajor.symm n) idx = some i := by
        obtain ⟨m, hm, e⟩ := hex
        rcases List.mem_cons.1 hm with rfl | hm'
        · exact e
        · exact absurd e (hmiss m hm')
      have hj := huniq n List.mem_cons_self hn
      rw [hn, ← hj]
      exact if_pos rfl

/-- A "set" scatter read at an operand position `i` that exactly one update index `j` lands on
    is the update at `j`. -/
theorem scatter_set_hit' (d : ScatterDims s si u) (x : s.Idx → α) (idx : IVec si w) (upd : u.Idx → α)
    (j : u.Idx) (i : s.Idx) (h : d.resultIdx? j idx = some i)
    (huniq : ∀ j', d.resultIdx? j' idx = some i → j' = j) :
    Host.scatter d (fun _ b => b) x idx upd i = upd j := by
  unfold Host.scatter
  refine foldl_set_hit d idx upd _ x i j ⟨u.rowMajor j, List.mem_finRange _, ?_⟩ (fun n _ hn => huniq _ hn)
  rw [Equiv.symm_apply_apply]; exact h

/-- A "set" scatter whose update indices land on pairwise distinct operand positions, read at
    the position `i` update index `j` lands on, is the update at `j`. -/
theorem scatter_set_hit (d : ScatterDims s si u) (x : s.Idx → α) (idx : IVec si w) (upd : u.Idx → α)
    (hinj : ∀ j j' i, d.resultIdx? j idx = some i → d.resultIdx? j' idx = some i → j = j')
    (j : u.Idx) (i : s.Idx) (h : d.resultIdx? j idx = some i) :
    Host.scatter d (fun _ b => b) x idx upd i = upd j :=
  scatter_set_hit' d x idx upd j i h (fun j' hj' => hinj j' j i hj' h)

/-- A "set" scatter read at an operand position `i` no update index lands on is the operand
    at `i`. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  exact foldl_set_miss d idx upd _ x i (fun n _ => h _)

end Cert.LibScatterSet
-- ==== Proof.AugTable.lean ====
import proofs.«157237_g13202729468280_cont_week2_1087_45_alg».proof.Proof.Gen.KernelIdeal
import proofs.«157237_g13202729468280_cont_week2_1087_45_alg».proof.Proof.LibScatterSet
import Idealize.ShloMosaic.Lib.ValueIdx
import Idealize.ShloMosaic.Lib.IdealHost
import Idealize.ShloMosaic.PureOps.Ideal

/-!
# The augmented table, read at an index

The host builds a 1000×24 table from the 1000×16 `items`: a table of zeros, into which a first
"set" scatter writes `items` at columns 0–15 (one window of the whole update, started at
column 0), and a second writes the constant one down column 16 (one column window, started at
column 16). Read at the extended reals:

* `aug_items`: at row `n`, column `s < 16` the table holds `items (n, s)` — the second scatter
  misses the position (every one of its updates lands in column 16), the first hits it from the
  update index `(n, s)` and from no other;
* `aug_ones`: at row `n`, column 16 the table holds `1` — the second scatter hits the position
  from the update index `n` and from no other, and its update is the word of the float one.

The landing positions are computed with the update index symbolic: the start of the window is
the scatter index read signed (`start_const`), the window coordinate the update's coordinate on
the matching window axis, and the sum is inside the operand (`resultIdx?_eq_some`).
-/

namespace Cert.KernelIdeal.AugTable

open Cert.KernelIdeal Idealize.ShloMosaic Idealize.ShloMosaic.ValueIdx Cert.LibScatterSet

open Facts₀

/-- The start of a scatter window whose scatter indices all hold the word `c`: `c` read signed
    on the operand axes the start index names, `0` elsewhere. -/
theorem start_const {s si u : Shape} {w : Nat} (d : ScatterDims s si u) (idx : IVec si w) (c : BitVec w)
    (hc : ∀ k, idx k = c) (j : u.Idx) (a : Fin s.rank) :
    d.start j idx a = if a ∈ d.scatterDimsToOperandDims then c.toInt else 0 := by
  unfold ScatterDims.start
  split
  · rw [hc]
  · rfl

/-- The augmented table: zeros, then `items` set at columns 0–15, then ones set down column 16
    (the host's two "set" scatters, as the program states them). -/
noncomputable def aug (items : (⟨S1000x16, .f32⟩ : BufTy).Contents (Elt Ideal)) :
    (⟨S1000x24, .f32⟩ : BufTy).Contents (Elt Ideal) :=
  Host.scatter scatter_S1000x24_S1_S1000_0_1_1_0 (fun _ b => b)
    (Host.scatter scatter_S1000x24_S1_S1000x16_01_n_1_0 (fun _ b => b)
      (broadcastInDim S1000x24 ![] bcast_S_S1000x24 (constant (F := Ideal) S_ .f32 0x00000000#32))
      (broadcastInDim S1 ![] bcast_S_S1 (constantI S_ 32 0#32))
      items)
    (broadcastInDim S1 ![] bcast_S_S1 (constantI S_ 32 16#32))
    (broadcastInDim S1000 ![] bcast_S_S1000 (constant (F := Ideal) S_ .f32 0x3F800000#32))

/-! The window coordinates: the first scatter's window axes are both of the update's axes, the
    second's the update's one axis on the rows (column 1 of the operand is inserted). -/
theorem window1_0 (j : S1000x16.Idx) : scatter_S1000x24_S1_S1000x16_01_n_1_0.window j 0 = (j 0).val := rfl
theorem window1_1 (j : S1000x16.Idx) : scatter_S1000x24_S1_S1000x16_01_n_1_0.window j 1 = (j 1).val := rfl
theorem window2_0 (j : S1000.Idx) : scatter_S1000x24_S1_S1000_0_1_1_0.window j 0 = (j 0).val := rfl
theorem window2_1 (j : S1000.Idx) : scatter_S1000x24_S1_S1000_0_1_1_0.window j 1 = 0 := rfl

/-- The first scatter's window starts at `(0, 0)`: its one scatter index is the word `0`. -/
theorem start1 (j : S1000x16.Idx) (a : Fin S1000x24.rank) :
    scatter_S1000x24_S1_S1000x16_01_n_1_0.start j
      (broadcastInDim S1 ![] bcast_S_S1 (constantI S_ 32 0#32)) a = 0 := by
  rw [start_const _ (broadcastInDim S1 ![] bcast_S_S1 (constantI S_ 32 0#32)) 0#32 (fun _ => rfl)]
  split <;> rfl

/-- The second scatter's window starts at row `0` (the start index does not name the rows). -/
theorem start2_0 (j : S1000.Idx) :
    scatter_S1000x24_S1_S1000_0_1_1_0.start j
      (broadcastInDim S1 ![] bcast_S_S1 (constantI S_ 32 16#32)) 0 = 0 := by
  rw [start_const _ (broadcastInDim S1 ![] bcast_S_S1 (constantI S_ 32 16#32)) 16#32 (fun _ => rfl), if_neg (by decide)]

/-- The second scatter's window starts at column `16`: its one scatter index is the word `16`. -/
theorem start2_1 (j : S1000.Idx) :
    scatter_S1000x24_S1_S1000_0_1_1_0.start j
      (broadcastInDim S1 ![] bcast_S_S1 (constantI S_ 32 16#32)) 1 = 16 := by
  rw [start_const _ (broadcastInDim S1 ![] bcast_S_S1 (constantI S_ 32 16#32)) 16#32 (fun _ => rfl), if_pos (by decide)]
  decide

/-- An update index lands on the operand position `i` whose coordinate on every axis is the
    window's start plus the window coordinate. -/
theorem resultIdx?_eq_some {s si u : Shape} {w : Nat} (d : ScatterDims s si u) (j : u.Idx) (idx : IVec si w)
    (i : s.Idx) (h : ∀ a, d.start j idx a + d.window j a = ((i a).val : Int)) :
    d.resultIdx? j idx = some i := by
  have hb : ∀ a, 0 ≤ d.start j idx a + d.window j a ∧ d.start j idx a + d.window j a < s.size a := by
    intro a
    rw [h a]
    exact ⟨Int.natCast_nonneg _, Int.ofNat_lt.2 (i a).isLt⟩
  unfold ScatterDims.resultIdx?
  rw [dif_pos hb]
  refine congrArg some (funext fun a => Fin.ext ?_)
  show (d.start j idx a + d.window j a).toNat = (i a).val
  rw [h a]
  exact Int.toNat_natCast _

/-- The first scatter's update index `j` lands on the operand position with `j`'s coordinates. -/
theorem resultIdx1 (j : S1000x16.Idx) :
    scatter_S1000x24_S1_S1000x16_01_n_1_0.resultIdx? j
      (broadcastInDim S1 ![] bcast_S_S1 (constantI S_ 32 0#32))
      = some (ix2 ⟨(j 0).val, idx2_lt0 j⟩ ⟨(j 1).val, by have := idx2_lt1 j; omega⟩) := by
  refine resultIdx?_eq_some _ _ _ _ (Fin.forall_fin_two.2 ⟨?_, ?_⟩)
  · rw [start1, window1_0]; exact Int.zero_add _
  · rw [start1, window1_1]; exact Int.zero_add _

/-- The second scatter's update index `j` lands on row `j`, column `16`. -/
theorem resultIdx2 (j : S1000.Idx) :
    scatter_S1000x24_S1_S1000_0_1_1_0.resultIdx? j
      (broadcastInDim S1 ![] bcast_S_S1 (constantI S_ 32 16#32))
      = some (ix2 ⟨(j 0).val, (j 0).isLt⟩ ⟨16, by decide⟩) := by
  refine resultIdx?_eq_some _ _ _ _ (Fin.forall_fin_two.2 ⟨?_, ?_⟩)
  · rw [start2_0, window2_0]; exact Int.zero_add _
  · rw [start2_1, window2_1]; rfl

/-- At row `n`, column `s < 16` the augmented table holds `items (n, s)`. -/
theorem aug_items (items : (⟨S1000x16, .f32⟩ : BufTy).Contents (Elt Ideal)) (n : Fin 1000) (s : Fin 16) :
    aug items (ValueIdx.ix2 n (⟨s.val, by omega⟩ : Fin 24)) = items (ValueIdx.ix2 n s) := by
  unfold aug
  refine (scatter_set_miss _ _ _ _ _ ?_).trans (scatter_set_hit' _ _ _ _ (ix2 n s) _ (resultIdx1 _) ?_)
  · intro j hj
    rw [resultIdx2] at hj
    have e := congrArg Fin.val (congrFun (Option.some.inj hj) 1)
    have hs := s.isLt
    change 16 = s.val at e
    omega
  · intro j' hj'
    rw [resultIdx1] at hj'
    have e := Option.some.inj hj'
    have e0 := congrArg Fin.val (congrFun e 0)
    have e1 := congrArg Fin.val (congrFun e 1)
    change (j' 0).val = n.val at e0
    change (j' 1).val = s.val at e1
    rw [eq_ix2 j', Fin.ext e0, Fin.ext e1]
    rfl

/-- At row `n`, column `16` the augmented table holds `1`. -/
theorem aug_ones (items : (⟨S1000x16, .f32⟩ : BufTy).Contents (Elt Ideal)) (n : Fin 1000) :
    aug items (ValueIdx.ix2 n (⟨16, by decide⟩ : Fin 24)) = 1 := by
  unfold aug
  refine (scatter_set_hit' _ _ _ _ (ix1 n) _ (resultIdx2 _) ?_).trans ?_
  · intro j' hj'
    rw [resultIdx2] at hj'
    have e0 := congrArg Fin.val (congrFun (Option.some.inj hj') 0)
    change (j' 0).val = n.val at e0
    rw [eq_ix1 j', Fin.ext e0]
    rfl
  · exact Ideal.ofBits_one_f32

end Cert.KernelIdeal.AugTable
-- ==== Proof.KernelValue.lean ====
/-
  The idealized kernel's value. Its @main transposes the selections (items along the first axis, the batch along
  the second), builds the table (the items, a column of ones in column 16, zero columns after), runs one region
  over 8 grid points and transposes the region's output back.

  At point `t` the body reads the whole table and batch columns `2048 t .. 2048 t + 2047` of the transposed
  selections, contracts the table with the exponentials of the selections over the 1000 items, and divides rows
  0..15 of the product by row 16. Row `s < 16` of the product at batch column `b` is Σ_n items(n, s) · e^{sel(b, n)},
  and row 16 is Σ_n 1 · e^{sel(b, n)}: the quotient is the softmax-weighted lookup, with no shift by the row maximum.
  The 8 blocks tile the 16 x 16384 output array, so it ends holding the lookup sample-major; the transpose
  after the region makes it batch-major, which is the specification.
-/
import proofs.«157237_g13202729468280_cont_week2_1087_45_alg».proof.Proof.Gen.KernelIdeal.Frame
import proofs.«157237_g13202729468280_cont_week2_1087_45_alg».proof.Proof.Payload
import proofs.«157237_g13202729468280_cont_week2_1087_45_alg».proof.Proof.Spec
import proofs.«157237_g13202729468280_cont_week2_1087_45_alg».proof.Proof.AugTable
import Idealize.ShloMosaic.Lib.ValueIdx
import Idealize.ShloMosaic.Lib.Pipeline.Value
import Idealize.ShloMosaic.Lib.StableHlo.Run

noncomputable section

namespace Cert.KernelIdeal.KernelValue
open Cert.KernelIdeal Cert.KernelIdeal.Gen Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds -/

/-- The selections reach the region transposed: items along the first axis, the batch along the second. -/
theorem V_sel (c : Dev nD) : (V m c main_v0 : S1000x16384.Idx → EReal)
    = transpose S1000x16384 [1, 0] (m ((c : Thread nD τ).loc main_arg0)) transposes_S16384x1000_S1000x16384_1_0 := by
  show StableHlo.after hostOps0 (fun b => m (c, b)) (Proc.devRef .tc main_v0) = _
  after_results

/-- The table reaches the region as the items with a column of ones appended (and zero columns after it). -/
theorem V_aug (c : Dev nD) : (V m c main_v6 : S1000x24.Idx → EReal)
    = AugTable.aug (m ((c : Thread nD τ).loc main_arg1)) := by
  show StableHlo.after hostOps0 (fun b => m (c, b)) (Proc.devRef .tc main_v6) = _
  after_results
  rfl

/-- The transposed selections at (item `n`, batch row `b`) are the selections at (`b`, `n`). -/
theorem sel_apply (c : Dev nD) (n : Fin 1000) (b : Fin 16384) :
    (V m c main_v0 : S1000x16384.Idx → EReal) (ix2 n b) = m ((c : Thread nD τ).loc main_arg0) (ix2 b n) := by
  rw [V_sel]
  exact transpose_apply _ _ transposes_S16384x1000_S1000x16384_1_0 (ix2 n b) (ix2 b n)
    (fun a => by match a with | ⟨0, _⟩ => rfl | ⟨1, _⟩ => rfl)

/-! ## The windows' blocks -/

/-- The index maps over the grid of 8 points: the table's window stays at block (0, 0); the selections' and the
    output's windows walk the batch axis, block `t` at point `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem t_lt (t : Fin cfg0.N) : t.val < 8 := by
  have h := t.isLt
  have hN : cfg0.N = 8 := N_0
  omega

/-- The table's block at any point is the whole table. -/
theorem iblk0_apply (c : Dev nD) (t : Fin cfg0.N) (n : Fin 1000) (r : Fin 24) :
    iblk m c 0 t (ix2 n r) = (V m c main_v6 : S1000x24.Idx → EReal) (ix2 n r) := by
  obtain ⟨e0, e1, -, -, -, -⟩ := idx_facts t
  show (V m c main_v6 : S1000x24.Idx → EReal) (((cfg0.win 0).blk t).view.emb (ix2 n r)) = _
  refine congrArg (V m c main_v6 : S1000x24.Idx → EReal) (funext fun a => Fin.ext ?_)
  match a with
  | ⟨0, _⟩ => show win0_0.index t (0 : Fin 2) * 1000 + 1 * n.val = n.val; omega
  | ⟨1, _⟩ => show win0_0.index t (1 : Fin 2) * 24 + 1 * r.val = r.val; omega

/-- The selections' block at point `t` holds batch rows `2048 t .. 2048 t + 2047`, all items. -/
theorem iblk1_apply (c : Dev nD) (t : Fin cfg0.N) (n : Fin 1000) (j : Fin 2048) (b : Fin 16384)
    (hb : b.val = t.val * 2048 + j.val) :
    iblk m c 1 t (ix2 n j) = (V m c main_v0 : S1000x16384.Idx → EReal) (ix2 n b) := by
  obtain ⟨-, -, e0, e1, -, -⟩ := idx_facts t
  show (V m c main_v0 : S1000x16384.Idx → EReal) (((cfg0.win 1).blk t).view.emb (ix2 n j)) = _
  refine congrArg (V m c main_v0 : S1000x16384.Idx → EReal) (funext fun a => Fin.ext ?_)
  match a with
  | ⟨0, _⟩ => show win0_1.index t (0 : Fin 2) * 1000 + 1 * n.val = n.val; omega
  | ⟨1, _⟩ => show win0_1.index t (1 : Fin 2) * 2048 + 1 * j.val = b.val; omega

/-- Where the output's block at point `t` sits in its array: all 16 sample rows, batch columns from `2048 t`. -/
theorem oblk_emb (t : Fin cfg0.N) (s : Fin 16) (j : Fin 2048) (b : Fin 16384) (hb : b.val = t.val * 2048 + j.val) :
    ((cfg0.win 2).blk t).view.emb (ix2 s j) = (ix2 s b : S16x16384.Idx) := by
  obtain ⟨-, -, -, -, e0, e1⟩ := idx_facts t
  refine funext fun a => Fin.ext ?_
  match a with
  | ⟨0, _⟩ => show win0_2.index t (0 : Fin 2) * 16 + 1 * s.val = s.val; omega
  | ⟨1, _⟩ => show win0_2.index t (1 : Fin 2) * 2048 + 1 * j.val = b.val; omega

/-! ## The region's output array -/

/-- The region's output, sample-major: entry (`s`, `b`) is the lookup at batch row `b`, sample `s`. -/
def lookupT (X : S16384x1000.Idx → EReal) (A : S1000x16.Idx → EReal) : S16x16384.Idx → EReal :=
  fun i => Spec.lookupAt X A ⟨(i 1).val, (i 1).isLt⟩ ⟨(i 0).val, (i 0).isLt⟩

theorem hz : (![0, 0] : Fin 2 → Nat) = fun _ => 0 := funext fun a => by fin_cases a <;> rfl

/-- The body's stored value at (`s`, `j`) of point `t`'s block, from the blocks the point reads. -/
theorem point_value (c : Dev nD) (t : Fin cfg0.N) (s : Fin 16) (j : Fin 2048) (b : Fin 16384)
    (hb : b.val = t.val * 2048 + j.val) :
    k0_pay1 (F := Ideal) (iblk m c 1 t) (iblk m c 0 t) (ix2 s j)
      = Spec.lookupAt (m ((c : Thread nD τ).loc main_arg0)) (m ((c : Thread nD τ).loc main_arg1)) b s := by
  refine (Payload.pay_apply (iblk m c 1 t) (iblk m c 0 t) s j).trans ?_
  unfold Spec.lookupAt
  refine congrArg₂ Ideal.div (Finset.sum_congr rfl fun n _ => ?_) (Finset.sum_congr rfl fun n _ => ?_)
  · rw [iblk0_apply m c t n _, iblk1_apply m c t n j b hb, V_aug, AugTable.aug_items, sel_apply]
  · rw [iblk0_apply m c t n _, iblk1_apply m c t n j b hb, V_aug, AugTable.aug_ones, sel_apply]

/-- What point `t` writes back is block `t` of the sample-major lookup. -/
theorem flushed_eq (c : Dev nD) (t : Fin cfg0.N) :
    (dats m 0 c).flushed 2 t = ((cfg0.win 2).blk t).view.read (Elt Ideal)
      (lookupT (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S1000x2048) hz, View.ld_unit_zero (S := S1000x24) hz]
  funext y
  obtain ⟨s, j, rfl⟩ : ∃ (s : Fin 16) (j : Fin 2048), y = ix2 s j := ⟨y 0, y 1, eq_ix2 y⟩
  have ht := t_lt t
  have hb : (⟨t.val * 2048 + j.val, by omega⟩ : Fin 16384).val = t.val * 2048 + j.val := rfl
  show k0_pay1 (F := Ideal) (iblk m c 1 t) (iblk m c 0 t) (ix2 s j)
    = lookupT (m ((c : Thread nD τ).loc main_arg0)) (m ((c : Thread nD τ).loc main_arg1)) (((cfg0.win 2).blk t).view.emb (ix2 s j))
  rw [oblk_emb t s j _ hb]
  exact point_value m c t s j _ hb

/-- An index of the output array is in point `t`'s block iff each coordinate is in the block's range. -/
theorem mem_blk (t : Fin cfg0.N) (i : S16x16384.Idx) :
    i ∈ ((cfg0.win 2).blk t).view.set ↔ ∀ a : Fin 2, win0_2.index t a * S16x2048.size a ≤ (i a).val
      ∧ (i a).val < win0_2.index t a * S16x2048.size a + S16x2048.size a := by
  show i ∈ ((View.whole main_v7).slice (win0_2.rect t)).set ↔ _
  rw [View.set_slice_whole, Rect.mem_set_unit]
  exact Iff.rfl

/-- The 8 blocks cover the output array: column `b` is in block `b / 2048`. -/
theorem cover (i : S16x16384.Idx) :
    ∃ t : Fin cfg0.N, (cfg0.win 2).flush t = true ∧ i ∈ ((cfg0.win 2).blk t).view.set := by
  have hi0 : (i 0).val < 16 := (i 0).isLt
  have hi1 : (i 1).val < 16384 := (i 1).isLt
  have hN : cfg0.N = 8 := N_0
  refine ⟨⟨(i 1).val / 2048, by rw [hN]; omega⟩, flush0_2 _, ?_⟩
  rw [mem_blk]
  obtain ⟨-, -, -, -, e0, e1⟩ := idx_facts ⟨(i 1).val / 2048, by rw [hN]; omega⟩
  intro a
  match a with
  | ⟨0, _⟩ =>
    show win0_2.index _ (0 : Fin 2) * 16 ≤ (i 0).val ∧ (i 0).val < win0_2.index _ (0 : Fin 2) * 16 + 16
    rw [e0]; omega
  | ⟨1, _⟩ =>
    show win0_2.index _ (1 : Fin 2) * 2048 ≤ (i 1).val ∧ (i 1).val < win0_2.index _ (1 : Fin 2) * 2048 + 2048
    rw [e1]; show (i 1).val / 2048 * 2048 ≤ (i 1).val ∧ (i 1).val < (i 1).val / 2048 * 2048 + 2048; omega

/-- The region's output array after the run is the sample-major lookup. -/
theorem final (c : Dev nD) : (dats m 0 c).arrAt 2 cfg0.N
    = lookupT (m ((c : Thread nD τ).loc main_arg0)) (m ((c : Thread nD τ).loc main_arg1)) :=
  (dats m 0 c).arrAt_eq_of_cover 2 _ (fun t _ => flushed_eq m c t) cover

/-! ## After the region: the transpose back, and the run -/

/-- The result of @main: the region's sample-major array transposed to batch-major, which is the lookup. -/
theorem tail_eq (c : Dev nD) :
    Pipeline.afterTail₀ cfgs (dats m) 0 (V0 m) [hostOps1] c main_v8
      = Spec.lookup (m ((c : Thread nD τ).loc main_arg0)) (m ((c : Thread nD τ).loc main_arg1)) := by
  unfold Pipeline.afterTail₀
  show StableHlo.after hostOps1 _ (Proc.devRef .tc main_v8) = _
  after_results
  rw [(Pipeline.withArrays_arr spec0 launch0.win.arr_inj c _ _ 2).trans (final m c)]
  funext i
  obtain ⟨b, s, rfl⟩ : ∃ (b : Fin 16384) (s : Fin 16), i = ix2 b s := ⟨i 0, i 1, eq_ix2 i⟩
  refine (transpose_apply _ _ transposes_S16x16384_S16384x16_1_0 (ix2 b s) (ix2 s b)
    (fun a => by match a with | ⟨0, _⟩ => rfl | ⟨1, _⟩ => rfl)).trans ?_
  rfl

/-- The idealized kernel's run: every weakly fair execution terminates, the result array holds the lookup of
    the argument arrays, and the arguments end as launched. -/
theorem run : θ_run defs (onTc (τ := τ) (main (F := Ideal))) ⟨m, fun _ => 0, ρ⟩ (fun r => ∀ c : Dev nD,
      r.2.mem ((c.tc : Thread nD τ).loc main_v8)
        = Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.RowMax.lean ====
import proofs.«157237_g13202729468280_cont_week2_1087_45_alg».proof.Proof.Gen.ReferenceIdeal.Read
import Idealize.ShloMosaic.PureOps.Ideal

/-!
# The row maximum of a matrix of reals is a real

The softmax subtracts from each row its maximum, computed as `max (-∞) (fold of max from -∞ over the
row)`.  When every entry is a real number the fold is below `⊤` (its start and every entry are) and
above `⊥` (it is at least the row's first entry, and a row has 1000 > 0 entries), hence a real.
Only that it is a real number is stated, not which.
-/

namespace Cert.ReferenceIdeal.RowMax

open Cert.ReferenceIdeal Cert.ReferenceIdeal.Gen Idealize.ShloMosaic

/-- The `f32` pattern `0xFF800000` denotes `-∞`. -/
theorem ofBits_negInf : Ideal.ofBits .f32 0xFF800000#32 = (⊥ : EReal) := by
  simp [Ideal.ofBits, Ideal.ieee]

/-- A fold of `max` from `⊥` over a nonempty finite family of reals is a real. -/
theorem fold_max_real {ι : Type} (s : Finset ι) (hs : s.Nonempty) (g : ι → EReal)
    (hg : ∀ k ∈ s, ∃ r : ℝ, g k = (r : EReal)) :
    ∃ M : ℝ, s.fold max (⊥ : EReal) g = (M : EReal) := by
  have htop : s.fold max (⊥ : EReal) g ≠ ⊤ := by
    refine ne_of_lt ?_
    rw [Finset.fold_max_lt]
    refine ⟨bot_lt_top, fun k hk => ?_⟩
    obtain ⟨r, hr⟩ := hg k hk
    rw [hr]
    exact EReal.coe_lt_top r
  have hbot : s.fold max (⊥ : EReal) g ≠ ⊥ := by
    refine ne_of_gt ?_
    rw [Finset.lt_fold_max]
    obtain ⟨k, hk⟩ := hs
    obtain ⟨r, hr⟩ := hg k hk
    exact Or.inr ⟨k, hk, by rw [hr]; exact EReal.bot_lt_coe r⟩
  exact ⟨_, (EReal.coe_toReal htop hbot).symm⟩

/-- Each row's maximum, as the reference computes it, is a real number when every entry is. -/
theorem rowmax_real (X : (⟨S16384x1000, .f32⟩ : BufTy).Contents (Elt Ideal))
    (hX : ∀ i, ∃ r : ℝ, X i = (r : EReal)) (i : S16384.Idx) :
    ∃ M : ℝ, Cert.ReferenceIdeal.Read.val_main_v2 (F := Ideal) X i = (M : EReal) := by
  have hred : S16384x1000.Reduces [1] S16384 := by decide
  -- the reduce over axis 1, at row i, is the fold of max from -∞ over the row's 1000 coordinates
  have h0 : Read.val_main_v0 (F := Ideal) X i
      = (Finset.univ : Finset (Fin (S16384x1000.size 1))).fold max (⊥ : EReal) (X ∘ hred.lift i) := by
    unfold Read.val_main_v0
    refine (Host.reduce_eq_fold_single (α := EReal) (FloatOps.maximumf (F := Ideal) (φ := .f32)) X
      (Read.val_main_cst (F := Ideal)) reducesTo_S16384x1000_S16384_d1 hred h_S_ i).trans ?_
    rw [Read.val_main_cst_apply, Ideal.ofBits_def, ofBits_negInf]
    rfl
  have h1 : Read.val_main_v1 (F := Ideal) i = (⊥ : EReal) := by
    rw [Read.val_main_v1_apply, Read.val_main_cst_0_apply, Ideal.ofBits_def, ofBits_negInf]
  rw [Read.val_main_v2_apply, h1, h0, Ideal.maximumf_def, max_eq_right bot_le]
  exact fold_max_real _ ⟨⟨0, by decide⟩, Finset.mem_univ _⟩ _ (fun k _ => hX _)

end Cert.ReferenceIdeal.RowMax
-- ==== Proof.SoftmaxLaw.lean ====
import Idealize.ShloMosaic.PureOps.Ideal

/-!
# The softmax-weighted average over the extended reals

For real scores `x n` and real weights `a n` over a nonempty finite index set, the quotient
`(Σ a_n e^{x_n}) / (Σ e^{x_n})` computed directly equals the sum of the weights against the
normalised exponentials `e^{x_n - M} / Σ_k e^{x_k - M}`, for any real shift `M`.  Both are
stated at the extended reals with the exact operations and shown equal to the same real number.
-/

namespace Cert.SoftmaxLaw

open Idealize.ShloMosaic
open scoped BigOperators

/-- A finite sum of coerced reals is the coerced sum. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro i s hi ih
    rw [Finset.sum_insert hi, Finset.sum_insert hi, ih, EReal.coe_add]

variable {N : ℕ}

/-- A sum of exponentials over a nonempty index set is positive. -/
theorem sum_exp_pos (hN : 0 < N) (x : Fin N → ℝ) : 0 < ∑ n : Fin N, Real.exp (x n) := by
  haveI : Nonempty (Fin N) := ⟨⟨0, hN⟩⟩
  exact Finset.sum_pos (fun i _ => Real.exp_pos _) Finset.univ_nonempty

/-- The unshifted quotient: numerator `Σ a_n e^{x_n}`, denominator `Σ 1 · e^{x_n}`. -/
theorem kernel_side (hN : 0 < N) (x a : Fin N → ℝ) :
    Ideal.div (∑ n : Fin N, (a n : EReal) * Ideal.exp (x n : EReal))
        (∑ n : Fin N, (1 : EReal) * Ideal.exp (x n : EReal))
      = (((∑ n, a n * Real.exp (x n)) / (∑ n, Real.exp (x n)) : ℝ) : EReal) := by
  have hpos := sum_exp_pos hN x
  have h1 : (∑ n : Fin N, (a n : EReal) * Ideal.exp (x n : EReal))
      = ((∑ n, a n * Real.exp (x n) : ℝ) : EReal) := by
    rw [← coe_sum]
    refine Finset.sum_congr rfl (fun n _ => ?_)
    rw [Ideal.exp_coe, EReal.coe_mul]
  have h2 : (∑ n : Fin N, (1 : EReal) * Ideal.exp (x n : EReal))
      = ((∑ n, Real.exp (x n) : ℝ) : EReal) := by
    rw [← coe_sum]
    refine Finset.sum_congr rfl (fun n _ => ?_)
    rw [Ideal.exp_coe, one_mul]
  rw [h1, h2, Ideal.div_coe hpos.ne', ← EReal.coe_mul]
  congr 1
  rw [one_div, div_eq_mul_inv]

/-- The shifted, normalised form: each exponential `e^{x_n - M}` divided by `0 + Σ_k e^{x_k - M}`,
    then weighted and summed.  The shift cancels. -/
theorem reference_side (hN : 0 < N) (x a : Fin N → ℝ) (M : ℝ) :
    ∑ n : Fin N, Ideal.div (Ideal.exp ((x n : EReal) - (M : EReal)))
          ((0 : EReal) + ∑ k : Fin N, Ideal.exp ((x k : EReal) - (M : EReal))) * (a n : EReal)
      = (((∑ n, a n * Real.exp (x n)) / (∑ n, Real.exp (x n)) : ℝ) : EReal) := by
  have hpos := sum_exp_pos hN x
  have hposM : 0 < ∑ k : Fin N, Real.exp (x k - M) := sum_exp_pos hN (fun k => x k - M)
  have hden : (0 : EReal) + ∑ k : Fin N, Ideal.exp ((x k : EReal) - (M : EReal))
      = ((∑ k, Real.exp (x k - M) : ℝ) : EReal) := by
    rw [zero_add, ← coe_sum]
    refine Finset.sum_congr rfl (fun k _ => ?_)
    rw [← EReal.coe_sub, Ideal.exp_coe]
  rw [hden]
  have hterm : ∀ n : Fin N,
      Ideal.div (Ideal.exp ((x n : EReal) - (M : EReal))) ((∑ k, Real.exp (x k - M) : ℝ) : EReal)
          * (a n : EReal)
        = ((Real.exp (x n - M) * (1 / ∑ k, Real.exp (x k - M)) * a n : ℝ) : EReal) := by
    intro n
    rw [Ideal.div_coe hposM.ne', ← EReal.coe_sub, Ideal.exp_coe, ← EReal.coe_mul, ← EReal.coe_mul]
  rw [Finset.sum_congr rfl (fun n _ => hterm n), coe_sum]
  congr 1
  -- the identity in the reals: e^{x - M} = e^x / e^M, and the common factor e^M cancels
  have heM : Real.exp M ≠ 0 := (Real.exp_pos M).ne'
  have hS : (∑ k : Fin N, Real.exp (x k)) ≠ 0 := hpos.ne'
  have hsum : ∑ k : Fin N, Real.exp (x k - M) = (∑ k : Fin N, Real.exp (x k)) / Real.exp M := by
    rw [Finset.sum_div]
    exact Finset.sum_congr rfl (fun k _ => Real.exp_sub _ _)
  rw [Finset.sum_div, hsum]
  refine Finset.sum_congr rfl (fun n _ => ?_)
  rw [Real.exp_sub]
  field_simp

/-- The two forms agree, for any real shift. -/
theorem law (hN : 0 < N) (x a : Fin N → ℝ) (M : ℝ) :
    Ideal.div (∑ n : Fin N, (a n : EReal) * Ideal.exp (x n : EReal))
        (∑ n : Fin N, (1 : EReal) * Ideal.exp (x n : EReal))
      = ∑ n : Fin N, Ideal.div (Ideal.exp ((x n : EReal) - (M : EReal)))
          ((0 : EReal) + ∑ k : Fin N, Ideal.exp ((x k : EReal) - (M : EReal))) * (a n : EReal) := by
  rw [kernel_side hN x a, reference_side hN x a M]

end Cert.SoftmaxLaw
-- ==== Proof.RefValue.lean ====
import proofs.«157237_g13202729468280_cont_week2_1087_45_alg».proof.Proof.Gen.ReferenceIdeal.Read
import proofs.«157237_g13202729468280_cont_week2_1087_45_alg».proof.Proof.RowMax
import proofs.«157237_g13202729468280_cont_week2_1087_45_alg».proof.Proof.SoftmaxLaw
import proofs.«157237_g13202729468280_cont_week2_1087_45_alg».proof.Proof.Spec
import Idealize.ShloMosaic.Lib.ValueIdx

/-!
# The reference program's result is the specification

Row `b`, column `s` of the reference is `Σ_n (e^{X(b,n) - M_b} / (0 + Σ_k e^{X(b,k) - M_b})) · A(n,s)` with `M_b`
the row's maximum.  For real entries `M_b` is a real number, the shift cancels, and the value is the
unshifted quotient `(Σ_n A(n,s) e^{X(b,n)}) / (Σ_n 1 · e^{X(b,n)})` of the specification.
-/

namespace Cert.ReferenceIdeal.RefValue

open Cert.ReferenceIdeal Idealize.ShloMosaic Idealize.ShloMosaic.ValueIdx

/-- The reference at row `b`, column `s`, for real entries, is the specification's lookup there. -/
theorem ref_apply (X : (⟨S16384x1000, .f32⟩ : BufTy).Contents (Elt Ideal))
    (A : (⟨S1000x16, .f32⟩ : BufTy).Contents (Elt Ideal))
    (hX : ∀ i, ∃ r : ℝ, X i = (r : EReal)) (hA : ∀ i, ∃ r : ℝ, A i = (r : EReal))
    (b : Fin 16384) (s : Fin 16) :
    Read.val_main_v11 (F := Ideal) X A (ix2 b s) = Cert.Spec.lookupAt X A b s := by
  -- name the reals: row b of X, column s of A, and the row's maximum
  choose x hx using fun n : Fin 1000 => hX (ix2 b n)
  choose a ha using fun n : Fin 1000 => hA (ix2 n s)
  obtain ⟨M, hM⟩ := RowMax.rowmax_real X hX (ix1 b)
  -- the shifted exponential at (b, k)
  have h6 : ∀ k : Fin 1000,
      Read.val_main_v6 (F := Ideal) X (ix2 b k) = Ideal.exp ((x k : EReal) - (M : EReal)) := by
    intro k
    have e : Read.idx_main_v3 (Read.idx_main_v4 (ix2 b k)) = ix1 b :=
      funext fun c => Fin.ext (by match c with | ⟨0, _⟩ => rfl)
    rw [Read.val_main_v6_apply, Read.val_main_v5_apply, Read.val_main_v4_apply, Read.val_main_v3_apply,
      e, hM, hx k]
    rfl
  -- the row's sum of shifted exponentials, from the initial value 0
  have h7 : Read.val_main_v7 (F := Ideal) X (ix1 b)
      = (0 : EReal) + ∑ k : Fin 1000, Ideal.exp ((x k : EReal) - (M : EReal)) := by
    have hz : Ideal.ofBits .f32 0x00000000#32 = (0 : EReal) := by simp [Ideal.ofBits, Ideal.ieee]
    rw [Read.val_main_v7_apply, Read.val_main_cst_1_apply, Ideal.ofBits_def, hz]
    refine congrArg (_ + ·) (Finset.sum_congr rfl fun k _ => ?_)
    have e : Read.idx_main_v7 (ix1 b) k = ix2 b k :=
      funext fun c => Fin.ext (by match c with | ⟨0, _⟩ => rfl | ⟨1, _⟩ => rfl)
    rw [e, h6 k]
  -- the normalised exponential at (b, k)
  have h10 : ∀ k : Fin 1000, Read.val_main_v10 (F := Ideal) X (ix2 b k)
      = Ideal.div (Ideal.exp ((x k : EReal) - (M : EReal)))
          ((0 : EReal) + ∑ k : Fin 1000, Ideal.exp ((x k : EReal) - (M : EReal))) := by
    intro k
    have e : Read.idx_main_v8 (Read.idx_main_v9 (ix2 b k)) = ix1 b :=
      funext fun c => Fin.ext (by match c with | ⟨0, _⟩ => rfl)
    rw [Read.val_main_v10_apply, Read.val_main_v9_apply, Read.val_main_v8_apply, e, h7, h6 k]
    rfl
  -- the contraction with column s of A
  have h11 : ∀ k : Fin 1000,
      Read.val_main_v10 (F := Ideal) X (Read.lidx_main_v11 (ix2 b s) k) * A (Read.ridx_main_v11 (ix2 b s) k)
        = Ideal.div (Ideal.exp ((x k : EReal) - (M : EReal)))
            ((0 : EReal) + ∑ k : Fin 1000, Ideal.exp ((x k : EReal) - (M : EReal))) * (a k : EReal) := by
    intro k
    have el : Read.lidx_main_v11 (ix2 b s) k = ix2 b k :=
      funext fun c => Fin.ext (by match c with | ⟨0, _⟩ => rfl | ⟨1, _⟩ => rfl)
    have er : Read.ridx_main_v11 (ix2 b s) k = ix2 k s :=
      funext fun c => Fin.ext (by match c with | ⟨0, _⟩ => rfl | ⟨1, _⟩ => rfl)
    rw [el, er, h10 k, ha k]
  rw [Read.val_main_v11_apply, Finset.sum_congr rfl (fun k _ => h11 k)]
  unfold Cert.Spec.lookupAt
  simp only [hx, ha]
  exact (Cert.SoftmaxLaw.law (by decide) x a M).symm

/-- The reference's whole result, for real entries, is the specification. -/
theorem ref_eq (X : (⟨S16384x1000, .f32⟩ : BufTy).Contents (Elt Ideal))
    (A : (⟨S1000x16, .f32⟩ : BufTy).Contents (Elt Ideal))
    (hX : ∀ i, ∃ r : ℝ, X i = (r : EReal)) (hA : ∀ i, ∃ r : ℝ, A i = (r : EReal)) :
    Read.val_main_v11 (F := Ideal) X A = Cert.Spec.lookup X A := by
  funext i
  obtain ⟨b, s, rfl⟩ : ∃ (b : Fin 16384) (s : Fin 16), i = ix2 b s := ⟨i 0, i 1, eq_ix2 i⟩
  rw [ref_apply X A hX hA b s, Cert.Spec.lookup_ix2]

end Cert.ReferenceIdeal.RefValue
-- ==== Proof.FiniteInputs.lean ====
import proofs.«157237_g13202729468280_cont_week2_1087_45_alg».proof.Pre_finite_inputs
import proofs.«157237_g13202729468280_cont_week2_1087_45_alg».proof.Proof.Gen.Pre_finite_inputs
import Idealize.ShloMosaic.Lib.ReduceAll
import Idealize.ShloMosaic.Lib.ValueIdx
import Idealize.ShloMosaic.PureOps.Ideal

/-!
# The precondition "every input is finite", read back

The precondition is `all (|X| < +∞) ∧ all (|A| < +∞)`, an `i1` scalar.  At the extended reals
`|x| = max x (-x)`, and `max x (-x) < ⊤` excludes both `⊤` and `⊥` (since `-⊥ = ⊤`), so every
entry of both operands is a real number.
-/

namespace Cert.FiniteInputs

open Idealize.ShloMosaic

/-- The `f32` pattern `0x7F800000` denotes `+∞`. -/
theorem ofBits_posInf : Ideal.ofBits .f32 0x7F800000#32 = (⊤ : EReal) := by
  simp [Ideal.ofBits, Ideal.ieee]

/-- One element: `|x| < +∞` holds only of a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_posInf] at h'
  induction x using EReal.rec with
  | bot => simp at h'
  | coe r => exact ⟨r, rfl⟩
  | top => simp at h'

instance : Subsingleton Cert.Pre_finite_inputs.S_.Idx := ⟨fun a b => funext fun d => d.elim0⟩

open Cert.Pre_finite_inputs in
/-- Under the precondition every entry of both operands is a real number. -/
theorem real_of_pre [Cert.Pre_finite_inputs.Facts]
    (X : FVec Ideal S16384x1000 .f32) (A : FVec Ideal S1000x16 .f32)
    (h : Cert.Pre_finite_inputs.fn (F := Ideal) X A = fun _ => 1#1) :
    (∀ i, ∃ r : ℝ, X i = (r : EReal)) ∧ (∀ i, ∃ r : ℝ, A i = (r : EReal)) := by
  have h0 := congrFun h ValueIdx.ix0
  dsimp only [Cert.Pre_finite_inputs.fn] at h0
  obtain ⟨hX, hA⟩ := IntOp.andi_eq_one.1 h0
  refine ⟨fun i => ?_, fun i => ?_⟩
  · exact real_of_abs_lt_inf (X i) (Host.reduce_andi_all _ _ _ _ _ hX i)
  · exact real_of_abs_lt_inf (A i) (Host.reduce_andi_all _ _ _ _ _ hA i)

end Cert.FiniteInputs
-- ==== Proof.lean ====
/-
  The certificate of the fused softmax-weighted table lookup against its jnp reference.

  Kernel: out(b, s) = (Σ_n items(n, s) · e^{x(b, n)}) / (Σ_n 1 · e^{x(b, n)}) — the exponentials taken without
  subtracting the row maximum, the normalizer obtained from a column of ones appended to the items table, one
  contraction per block of 2048 batch rows. Reference: softmax(x, axis = -1) @ items, where the softmax subtracts
  the row maximum M_b before exponentiating: out(b, s) = Σ_n (e^{x(b, n) - M_b} / Σ_k e^{x(b, k) - M_b}) · items(n, s).

  On the extended reals, with every input finite, M_b is a real number, e^{x - M} = e^x / e^M, every sum is a
  real number and the normalizers are positive, so both sides are the real number (Σ_n items · e^x) / (Σ_n e^x):
  the law holds for any real shift M, and the value of the maximum is never needed. Finiteness is used (for an
  infinite entry the shifted and the unshifted forms differ), and it is what the precondition provides.

  The three frames are the generated ones (the reference's is its generated run with the result dropped); the
  idealization rewrote no operation, so its conjunct is trivial; the value conjunct joins the kernel's value
  (KernelValue: read off the frame run, block by block, then through the transpose after the region) and the
  reference's value (RefValue: the generated stages read at an index, joined to the specification by the law).
-/
import proofs.«157237_g13202729468280_cont_week2_1087_45_alg».proof.Defs
import proofs.«157237_g13202729468280_cont_week2_1087_45_alg».proof.Proof.Gen.Kernel
import proofs.«157237_g13202729468280_cont_week2_1087_45_alg».proof.Proof.Gen.Kernel.Skeleton
import proofs.«157237_g13202729468280_cont_week2_1087_45_alg».proof.Proof.Gen.Kernel.Launch
import proofs.«157237_g13202729468280_cont_week2_1087_45_alg».proof.Proof.Gen.Kernel.Points
import proofs.«157237_g13202729468280_cont_week2_1087_45_alg».proof.Proof.Gen.Kernel.Frame
import proofs.«157237_g13202729468280_cont_week2_1087_45_alg».proof.Proof.Gen.KernelIdeal
import proofs.«157237_g13202729468280_cont_week2_1087_45_alg».proof.Proof.Gen.KernelIdeal.Skeleton
import proofs.«157237_g13202729468280_cont_week2_1087_45_alg».proof.Proof.Gen.KernelIdeal.Launch
import proofs.«157237_g13202729468280_cont_week2_1087_45_alg».proof.Proof.Gen.KernelIdeal.Points
import proofs.«157237_g13202729468280_cont_week2_1087_45_alg».proof.Proof.Gen.KernelIdeal.Frame
import proofs.«157237_g13202729468280_cont_week2_1087_45_alg».proof.Proof.Gen.ReferenceIdeal
import proofs.«157237_g13202729468280_cont_week2_1087_45_alg».proof.Proof.Gen.ReferenceIdeal.Run
import proofs.«157237_g13202729468280_cont_week2_1087_45_alg».proof.Proof.Gen.ReferenceIdeal.Read
import proofs.«157237_g13202729468280_cont_week2_1087_45_alg».proof.Proof.Gen.Pre_finite_inputs
import proofs.«157237_g13202729468280_cont_week2_1087_45_alg».proof.Proof.KernelValue
import proofs.«157237_g13202729468280_cont_week2_1087_45_alg».proof.Proof.RefValue
import proofs.«157237_g13202729468280_cont_week2_1087_45_alg».proof.Proof.FiniteInputs
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the lookup of the arguments: the kernel by
    its value read off the frame run, the reference by its stages and the law that removes the shift. -/
theorem algebraic : Cert.algebraic_KernelIdeal_ReferenceIdeal := by
  intro m ρ m' ρ' hpre hagree
  refine ⟨fun c => Cert.Spec.lookup
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hA⟩ := Cert.FiniteInputs.real_of_pre _ _ (hpre c)
  rw [(hagree c).1, (hagree c).2, Cert.ReferenceIdeal.Read.val_main_v11_eq]
  exact Cert.ReferenceIdeal.RefValue.ref_eq _ _ hX hA

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
